-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x1 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S10x1x10000 : Shape := ⟨3, ![10, 1, 10000]⟩
abbrev S10000x128 : Shape := ⟨2, ![10000, 128]⟩
abbrev S1x1x10000 : Shape := ⟨3, ![1, 1, 10000]⟩
abbrev S10000x64 : Shape := ⟨2, ![10000, 64]⟩
abbrev S10000x1 : Shape := ⟨2, ![10000, 1]⟩
abbrev S1x10000 : Shape := ⟨2, ![1, 10000]⟩
abbrev S100000x1 : Shape := ⟨2, ![100000, 1]⟩

abbrev nBuf : Space → Nat
  | .hbm => 9
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x64, .f32⟩
  | .hbm, ⟨6, _⟩ => ⟨S1x1, .f32⟩
  | .hbm, ⟨7, _⟩ => ⟨S10x1x10000, .f32⟩
  | .hbm, ⟨8, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S1x1x10000, .f32⟩
  | .local _ .vmem, ⟨7, _⟩ => ⟨S1x1x10000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  transposes_S10000x1_p1_0_S1x10000 : S10000x1.Transposes [1, 0] S1x10000
  shapeCasts_S1x10000_S1x1x10000 : S1x10000.ShapeCasts S1x1x10000
  inb_S1x1x10000_S1x1x10000_0_0_0 : ∀ a, (![0, 0, 0] : Fin 3 → Nat) a + S1x1x10000.size a ≤ S1x1x10000.size a
  h_S1x1x10000 : 0 < S1x1x10000.numel
  shapeCasts_S10x1x10000_S100000x1 : S10x1x10000.ShapeCasts S100000x1
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x10000.size a ≤ S10x1x10000.size a
  hwx0_5 : ∀ i : grid0.Coords, EltTy.bits .f32 = 32 ∨ (Rect.block (s := S10x1x10000) S1x1x10000.size (cc0_transform_5 i) (hinb0_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S100000x64, .f32⟩
  | .hbm, ⟨6, _⟩ => ⟨S1x64, .f32⟩
  | .hbm, ⟨7, _⟩ => ⟨S100000x64, .f32⟩
  | .hbm, ⟨8, _⟩ => ⟨S100000x64, .f32⟩
  | .hbm, ⟨9, _⟩ => ⟨S_, .f32⟩
  | .hbm, ⟨10, _⟩ => ⟨S100000x64, .f32⟩
  | .hbm, ⟨11, _⟩ => ⟨S100000x64, .f32⟩
  | .hbm, ⟨12, _⟩ => ⟨S100000x1, .f32⟩
  | .hbm, ⟨13, _⟩ => ⟨S1x1, .f32⟩
  | .hbm, ⟨14, _⟩ => ⟨S100000x1, .f32⟩
  | .hbm, ⟨15, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.MlpSpec.lean ====
/-
  The function both programs compute: a two-layer perceptron applied to every row of a matrix.

  For a row `r` of `X` (128 features), the hidden layer has 64 units; unit `k` is the rectified affine form
  `max (Σ_j X[r, j] · W1[j, k] + β k) 0`, and the row's output is the affine form `Σ_k hidden[r, k] · W2[k, 0] + γ` of the
  hidden layer. All of it is read on the extended reals: the sums are finite sums there, `max` is the order's, and no
  law beyond the definitions is used — the two programs arrange the SAME sums in the same order of operations, so the
  inputs' finiteness is never needed.

  The bias of the hidden layer is taken as a function `β : Fin 64 → EReal` and the output bias as a number `γ`, so that a
  program holding the biases as a vector `[64]` / `[1]` and one holding them as a row `[1, 64]` / a cell `[1, 1]` both
  instantiate the one definition.

  Two whole-array forms: `result` is the column `[100000, 1]` the programs return; `tiles` is the same numbers laid out
  as ten lane-major tiles `[10, 1, 10000]`, tile `t` holding rows `10000·t … 10000·t + 9999`. `result_eq_tiles` is the
  row-major correspondence between the two.
-/
import Idealize.ShloMosaic.PureOps.Ideal
import Idealize.ShloMosaic.Lib.ValueIdx

noncomputable section

open scoped BigOperators

namespace Cert.Mlp

open Idealize.ShloMosaic Idealize.ShloMosaic.ValueIdx

/-- Hidden unit `k` of row `r`: the affine form of the row's 128 features, rectified. -/
def hidden (X : FVec Ideal ⟨2, ![100000, 128]⟩ .f32) (W1 : FVec Ideal ⟨2, ![128, 64]⟩ .f32) (β : Fin 64 → EReal)
    (r : Fin 100000) (k : Fin 64) : EReal :=
  max ((∑ j : Fin 128, X (ix2 r j) * W1 (ix2 j k)) + β k) 0

/-- The output of row `r`: the affine form of its 64 hidden units. -/
def row (X : FVec Ideal ⟨2, ![100000, 128]⟩ .f32) (W1 : FVec Ideal ⟨2, ![128, 64]⟩ .f32) (β : Fin 64 → EReal)
    (W2 : FVec Ideal ⟨2, ![64, 1]⟩ .f32) (γ : EReal) (r : Fin 100000) : EReal :=
  (∑ k : Fin 64, hidden X W1 β r k * W2 (ix2 k (0 : Fin 1))) + γ

/-- The result as the column `[100000, 1]`: entry `(r, 0)` is row `r`'s output. -/
def result (X : FVec Ideal ⟨2, ![100000, 128]⟩ .f32) (W1 : FVec Ideal ⟨2, ![128, 64]⟩ .f32) (β : Fin 64 → EReal)
    (W2 : FVec Ideal ⟨2, ![64, 1]⟩ .f32) (γ : EReal) : FVec Ideal ⟨2, ![100000, 1]⟩ .f32 :=
  fun i => row X W1 β W2 γ ⟨(i 0).val, idx2_lt0 i⟩

/-- Row `10000·t + q` is a row of the matrix when `t < 10` and `q < 10000`. -/
theorem tile_row_lt (t : Fin 10) (q : Fin 10000) : t.val * 10000 + q.val < 100000 := by
  have := t.isLt; have := q.isLt; omega

/-- The result as ten lane-major tiles `[10, 1, 10000]`: entry `(t, 0, q)` is the output of row `10000·t + q`. -/
def tiles (X : FVec Ideal ⟨2, ![100000, 128]⟩ .f32) (W1 : FVec Ideal ⟨2, ![128, 64]⟩ .f32) (β : Fin 64 → EReal)
    (W2 : FVec Ideal ⟨2, ![64, 1]⟩ .f32) (γ : EReal) : FVec Ideal ⟨3, ![10, 1, 10000]⟩ .f32 :=
  fun i => row X W1 β W2 γ
    ⟨(⟨(i 0).val, (i 0).isLt⟩ : Fin 10).val * 10000 + (⟨(i 2).val, (i 2).isLt⟩ : Fin 10000).val, tile_row_lt _ _⟩

/-- The tiles at an index written by coordinates. -/
theorem tiles_ix3 (X : FVec Ideal ⟨2, ![100000, 128]⟩ .f32) (W1 : FVec Ideal ⟨2, ![128, 64]⟩ .f32) (β : Fin 64 → EReal)
    (W2 : FVec Ideal ⟨2, ![64, 1]⟩ .f32) (γ : EReal) (t : Fin 10) (u : Fin 1) (q : Fin 10000) :
    tiles X W1 β W2 γ (ix3 t u q) = row X W1 β W2 γ ⟨t.val * 10000 + q.val, tile_row_lt t q⟩ := rfl

/-- The column at an index written by coordinates. -/
theorem result_ix2 (X : FVec Ideal ⟨2, ![100000, 128]⟩ .f32) (W1 : FVec Ideal ⟨2, ![128, 64]⟩ .f32) (β : Fin 64 → EReal)
    (W2 : FVec Ideal ⟨2, ![64, 1]⟩ .f32) (γ : EReal) (r : Fin 100000) (u : Fin 1) :
    result X W1 β W2 γ (ix2 r u) = row X W1 β W2 γ r := rfl

end Cert.Mlp

end
-- ==== Proof.RefValue.lean ====
/-
  The reference's result is the perceptron's column.

  The reference computes `relu(X · W1 + b1) · W2 + b2` with two host matrix products. Read at an index `(r, 0)` of the
  column, the second product is the sum over the 64 hidden units of the rectified value at `(r, k)` times `W2[k, 0]`; the
  rectified value is the maximum, with the zero constant, of the first product's sum over the 128 features plus the bias
  row broadcast down the rows, that is `b1[k]`; the output bias broadcast down the column is `b2[0]`. Each of these is
  one of the generated read-at-an-index lemmas; what is left is that the composed index maps are the coordinates
  `(r, j)`, `(j, k)`, `(k, 0)`, and that the zero word is the number zero.
-/
import proofs.«115821_g6820408066178_cont_9to1c4b_824_8_alg».proof.Proof.Gen.ReferenceIdeal.Read
import proofs.«115821_g6820408066178_cont_9to1c4b_824_8_alg».proof.Proof.MlpSpec

noncomputable section

open scoped BigOperators

namespace Cert.Mlp.Ref

open Idealize.ShloMosaic Idealize.ShloMosaic.ValueIdx Cert.ReferenceIdeal Cert.ReferenceIdeal.Read

/-- The first product's left operand index at output `(r, k)` of the hidden layer and feature `j` is `(r, j)`. -/
theorem lidx0 (r : Fin 100000) (u : Fin 1) (k : Fin 64) (j : Fin 128) :
    lidx_main_v0 (lidx_main_v5 (ix2 r u) k) j = ix2 r j :=
  funext fun a => Fin.ext (by match a with | ⟨0, _⟩ => rfl | ⟨1, _⟩ => rfl)

/-- Its right operand index is `(j, k)`. -/
theorem ridx0 (r : Fin 100000) (u : Fin 1) (k : Fin 64) (j : Fin 128) :
    ridx_main_v0 (lidx_main_v5 (ix2 r u) k) j = ix2 j k :=
  funext fun a => Fin.ext (by match a with | ⟨0, _⟩ => rfl | ⟨1, _⟩ => rfl)

/-- The hidden bias, broadcast to a row and then down the rows, is read at `k`. -/
theorem bidx (r : Fin 100000) (u : Fin 1) (k : Fin 64) :
    idx_main_v1 (idx_main_v2 (lidx_main_v5 (ix2 r u) k)) = ix1 k :=
  funext fun a => Fin.ext (by match a with | ⟨0, _⟩ => rfl)

/-- The second product's right operand index at output `(r, 0)` and hidden unit `k` is `(k, 0)`. -/
theorem ridx5 (r : Fin 100000) (k : Fin 64) : ridx_main_v5 (ix2 r (0 : Fin 1)) k = ix2 k (0 : Fin 1) :=
  funext fun a => Fin.ext (by match a with | ⟨0, _⟩ => rfl | ⟨1, _⟩ => rfl)

/-- The output bias, broadcast to a cell and then down the column, is read at `0`. -/
theorem cidx (r : Fin 100000) : idx_main_v6 (idx_main_v7 (ix2 r (0 : Fin 1))) = ix1 (0 : Fin 1) :=
  funext fun a => Fin.ext (by match a with | ⟨0, _⟩ => rfl)

/-- The rectified hidden value the reference computes at `(r, k)` is the perceptron's hidden unit. -/
theorem hidden_eq (x0 : FVec Ideal S100000x128 .f32) (x1 : FVec Ideal S128x64 .f32) (x2 : FVec Ideal S64 .f32)
    (r : Fin 100000) (u : Fin 1) (k : Fin 64) :
    val_main_v4 (F := Ideal) x0 x1 x2 (lidx_main_v5 (ix2 r u) k) = hidden x0 x1 (fun k => x2 (ix1 k)) r k := by
  rw [val_main_v4_apply, val_main_v3_apply, val_main_v0_apply, val_main_v2_apply, val_main_v1_apply,
    val_main_call0_v0_apply, val_main_call0_cst_apply, bidx]
  simp only [lidx0, ridx0, Ideal.addf_def, Ideal.maximumf_def, Ideal.ofBits_def, Ideal.ofBits_zero_f32]
  rfl

/-- The reference's last stage, as a whole array, is the perceptron's column. -/
theorem val_eq (x0 : FVec Ideal S100000x128 .f32) (x1 : FVec Ideal S128x64 .f32) (x2 : FVec Ideal S64 .f32)
    (x3 : FVec Ideal S64x1 .f32) (x4 : FVec Ideal S1 .f32) :
    val_main_v8 (F := Ideal) x0 x1 x2 x3 x4
      = result x0 x1 (fun k => x2 (ix1 k)) x3 (x4 (ix1 (0 : Fin 1))) := by
  funext i
  obtain ⟨r, u, rfl⟩ : ∃ (r : Fin 100000) (u : Fin 1), i = ix2 r u := ⟨i 0, i 1, eq_ix2 i⟩
  obtain rfl : u = 0 := Subsingleton.elim _ _
  rw [val_main_v8_apply, val_main_v5_apply, val_main_v7_apply, val_main_v6_apply, cidx, result_ix2]
  unfold row
  simp only [hidden_eq, ridx5, Ideal.addf_def]

end Cert.Mlp.Ref

end
-- ==== Proof.BodyValue.lean ====
/-
  What the kernel body stores, read at an index.

  The body loads a tile of 10000 rows of `X`, the whole of `W1` and `W2`, the hidden bias as a row `[1, 64]` and the output
  bias as a cell `[1, 1]`; it forms `max (tile · W1 + bias row broadcast down the rows) 0`, multiplies by `W2`, adds the cell
  broadcast down the column, transposes the column `[10000, 1]` to a row `[1, 10000]` and gives it a leading unit axis.
  So the stored value at `(0, 0, q)` is the column's entry `(q, 0)`: the sum over the 64 hidden units `k` of
  `max (Σ_j tile[q, j] · W1[j, k] + bias[0, k]) 0 · W2[k, 0]`, plus the cell. On the extended reals each matrix product into
  a zero accumulator is the plain finite sum over its one contracted axis.
-/
import proofs.«115821_g6820408066178_cont_9to1c4b_824_8_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Body

open Idealize.ShloMosaic Idealize.ShloMosaic.ValueIdx Cert.KernelIdeal Cert.KernelIdeal.Gen

/-! ## The first product, `[10000, 128] · [128, 64]`, at `(q, k)` -/

theorem lhs1_0 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
theorem rhs1_0 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
theorem rhs1_1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `q` of the tile against column `k` of the weights: the sum over the 128 features. -/
theorem product1_apply (a : FVec Ideal S10000x128 .f32) (b : FVec Ideal S128x64 .f32) (q : Fin 10000) (k : Fin 64) :
    matmul dot_S10000x128_S128x64_S10000x64_1_0_0_1_n_n none a b (constant (F := Ideal) S10000x64 .f32 0x00000000#32) (ix2 q k)
      = ∑ j : Fin 128, a (ix2 q j) * b (ix2 j k) := by
  simp only [matmul]
  rw [Ideal.matmul_constant_zero_apply, ← Equiv.sum_comp (contrEquiv1 dot_S10000x128_S128x64_S10000x64_1_0_0_1_n_n 128 rfl rfl).symm]
  refine Finset.sum_congr rfl fun j _ => ?_
  have hj := contrEquiv1_symm_val dot_S10000x128_S128x64_S10000x64_1_0_0_1_n_n 128 rfl rfl j
  have el : dot_S10000x128_S128x64_S10000x64_1_0_0_1_n_n.lhsIdx (ix2 q k) ((contrEquiv1 dot_S10000x128_S128x64_S10000x64_1_0_0_1_n_n 128 rfl rfl).symm j) = ix2 q j := funext fun x => Fin.ext (by
    match x with
    | ⟨0, _⟩ => exact lhs1_0 _ _
    | ⟨1, _⟩ => exact (lhs1_1 _ _).trans hj)
  have er : dot_S10000x128_S128x64_S10000x64_1_0_0_1_n_n.rhsIdx (ix2 q k) ((contrEquiv1 dot_S10000x128_S128x64_S10000x64_1_0_0_1_n_n 128 rfl rfl).symm j) = ix2 j k := funext fun x => Fin.ext (by
    match x with
    | ⟨0, _⟩ => exact (rhs1_0 _ _).trans hj
    | ⟨1, _⟩ => exact rhs1_1 _ _)
  rw [el, er]

/-! ## The second product, `[10000, 64] · [64, 1]`, at `(q, 0)` -/

theorem lhs2_0 (i : S10000x1.Idx) (c : dot_S10000x64_S64x1_S10000x1_1_0_0_1_n_n.contr.Idx) :
    (dot_S10000x64_S64x1_S10000x1_1_0_0_1_n_n.lhsIdx i c 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs2_1 (i : S10000x1.Idx) (c : dot_S10000x64_S64x1_S10000x1_1_0_0_1_n_n.contr.Idx) :
    (dot_S10000x64_S64x1_S10000x1_1_0_0_1_n_n.lhsIdx i c 1).val = (c ⟨0, by decide⟩).val :=
  dot_S10000x64_S64x1_S10000x1_1_0_0_1_n_n.lhsIdx_val_of_single rfl i c
theorem rhs2_0 (i : S10000x1.Idx) (c : dot_S10000x64_S64x1_S10000x1_1_0_0_1_n_n.contr.Idx) :
    (dot_S10000x64_S64x1_S10000x1_1_0_0_1_n_n.rhsIdx i c 0).val = (c ⟨0, by decide⟩).val :=
  dot_S10000x64_S64x1_S10000x1_1_0_0_1_n_n.rhsIdx_val_of_single rfl i c
theorem rhs2_1 (i : S10000x1.Idx) (c : dot_S10000x64_S64x1_S10000x1_1_0_0_1_n_n.contr.Idx) :
    (dot_S10000x64_S64x1_S10000x1_1_0_0_1_n_n.rhsIdx i c 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Row `q` of the hidden layer against the one column of the output weights: the sum over the 64 hidden units. -/
theorem product2_apply (a : FVec Ideal S10000x64 .f32) (b : FVec Ideal S64x1 .f32) (q : Fin 10000) (z : Fin 1) :
    matmul dot_S10000x64_S64x1_S10000x1_1_0_0_1_n_n none a b (constant (F := Ideal) S10000x1 .f32 0x00000000#32) (ix2 q z)
      = ∑ k : Fin 64, a (ix2 q k) * b (ix2 k z) := by
  simp only [matmul]
  rw [Ideal.matmul_constant_zero_apply, ← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 q z) ((contrEquiv1 dot_S10000x64_S64x1_S10000x1_1_0_0_1_n_n 64 rfl rfl).symm k) = ix2 q k := funext fun x => Fin.ext (by
    match x with
    | ⟨0, _⟩ => exact lhs2_0 _ _
    | ⟨1, _⟩ => exact (lhs2_1 _ _).trans hk)
  have er : dot_S10000x64_S64x1_S10000x1_1_0_0_1_n_n.rhsIdx (ix2 q z) ((contrEquiv1 dot_S10000x64_S64x1_S10000x1_1_0_0_1_n_n 64 rfl rfl).symm k) = ix2 k z := funext fun x => Fin.ext (by
    match x with
    | ⟨0, _⟩ => exact (rhs2_0 _ _).trans hk
    | ⟨1, _⟩ => exact rhs2_1 _ _)
  rw [el, er]

/-! ## The stored value -/

/-- The rectified hidden value at `(q, k)`: the first product plus the bias row's entry `k`, against zero. -/
theorem hidden_apply (x0 : FVec Ideal S10000x128 .f32) (x1 : FVec Ideal S128x64 .f32) (x2 : FVec Ideal S1x64 .f32)
    (q : Fin 10000) (k : Fin 64) :
    maximumf
        (addf (matmul dot_S10000x128_S128x64_S10000x64_1_0_0_1_n_n none x0 x1 (constant (F := Ideal) S10000x64 .f32 0x00000000#32))
          (broadcastTo S10000x64 (shapeCast S1x64 x2 shapeCasts_S1x64_S1x64) broadcasts_S1x64_S10000x64))
        (broadcast S10000x64 (Scalar.ofBits (F := Ideal) .f32 0x00000000#32)) (ix2 q k)
      = max ((∑ j : Fin 128, x0 (ix2 q j) * x1 (ix2 j k)) + x2 (ix2 (0 : Fin 1) k)) 0 := by
  refine (maximumf_apply _ _ _).trans (congrArg₂ max ((addf_apply _ _ _).trans (congrArg₂ (· + ·) (product1_apply x0 x1 q k) ?_)) ?_)
  · exact (broadcastTo_1b_ab_apply _ _ q k).trans (congrFun (shapeCast_self x2 _) _)
  · exact Ideal.ofBits_zero_f32

/-- The body's stored tile at lane `q`: the perceptron's output for row `q` of the tile. -/
theorem pay_apply (x0 : FVec Ideal S10000x128 .f32) (x1 : FVec Ideal S128x64 .f32) (x2 : FVec Ideal S1x64 .f32)
    (x3 : FVec Ideal S64x1 .f32) (x4 : FVec Ideal S1x1 .f32) (u v : Fin 1) (q : Fin 10000) :
    k0_pay1 (F := Ideal) x0 x1 x2 x3 x4 (ix3 u v q)
      = (∑ k : Fin 64, max ((∑ j : Fin 128, x0 (ix2 q j) * x1 (ix2 j k)) + x2 (ix2 (0 : Fin 1) k)) 0 * x3 (ix2 k (0 : Fin 1)))
        + x4 (ix2 (0 : Fin 1) (0 : Fin 1)) := by
  obtain rfl : v = 0 := Subsingleton.elim _ _
  unfold k0_pay1
  refine (shapeCast_ab_1ab_apply _ _ u (0 : Fin 1) q).trans ?_
  refine (transpose_ix2_apply _ _ (0 : Fin 1) q).trans ?_
  refine (addf_apply _ _ _).trans (congrArg₂ (· + ·) ?_ ?_)
  · refine (product2_apply _ x3 q (0 : Fin 1)).trans (Finset.sum_congr rfl fun k _ => ?_)
    exact congrArg (· * x3 (ix2 k (0 : Fin 1))) (hidden_apply x0 x1 x2 q k)
  · exact (broadcastTo_1b_ab_apply _ _ q (0 : Fin 1)).trans (congrFun (shapeCast_self x4 _) _)

end Cert.Mlp.Body

end
-- ==== Proof.TileValue.lean ====
/-
  From the tiles the grid points write back to the whole result of the kernel's region.

  The region's result array is `[10, 1, 10000]`: point `t` of the grid (ten points) reads rows `10000·t … 10000·t + 9999`
  of `X`, the whole of the other four operands, and writes back tile `t`. By the body's value at a lane, what point `t`
  writes back at lane `q` is the perceptron's output for row `10000·t + q`: the block `t` of ONE function of the arrays,
  `Cert.Mlp.tiles`. The ten blocks tile the result array (index `(a, 0, q)` is in the block of point `a`), so after the
  region the array is that function.

  The hidden bias reaches the region as the row `[1, 64]` a reshape made of the vector `[64]`, the output bias as the cell
  `[1, 1]` made of `[1]`; read at `(0, k)` and `(0, 0)` they are the vector's entries `k` and `0`.
-/
import proofs.«115821_g6820408066178_cont_9to1c4b_824_8_alg».proof.Proof.Gen.KernelIdeal.Frame
import proofs.«115821_g6820408066178_cont_9to1c4b_824_8_alg».proof.Proof.MlpSpec
import proofs.«115821_g6820408066178_cont_9to1c4b_824_8_alg».proof.Proof.BodyValue
import Idealize.ShloMosaic.Lib.Pipeline.Value
import Idealize.ShloMosaic.Lib.ValueLayout
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.Mlp.Tile

open Cert.KernelIdeal Cert.KernelIdeal.Gen Idealize.ShloMosaic.StableHlo

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the ten points: the rows of `X` and the result's tiles move with the point, every other
    operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input blocks as the arrays read at an index -/

/-- The block of `X` at point `t` is rows `10000·t … 10000·t + 9999`. -/
theorem xblk_apply (c : Dev nD) (t : Fin cfg0.N) (q : Fin 10000) (j : Fin 128) (r : Fin 100000)
    (hr : r.val = t.val * 10000 + q.val) :
    (iblk m c 0 t : FVec Ideal S10000x128 .f32) (ix2 q j) = (V m c main_arg0 : FVec Ideal S100000x128 .f32) (ix2 r j) := by
  obtain ⟨e0, e1, -⟩ := idx_facts t
  unfold iblk
  rw [View.read_apply]
  show (V m c main_arg0 : S100000x128.Idx → EReal) (((cfg0.win 0).blk t).view.emb (ix2 q j)) = _
  refine congrArg (V m c main_arg0 : S100000x128.Idx → EReal) (funext fun a => Fin.ext ?_)
  match a with
  | ⟨0, _⟩ => show win0_0.index t (0 : Fin 2) * 10000 + 1 * q.val = r.val; rw [e0, hr]; omega
  | ⟨1, _⟩ => show win0_0.index t (1 : Fin 2) * 128 + 1 * j.val = j.val; rw [e1]; omega

/-- The block of `W1` at every point is the whole array. -/
theorem w1blk_eq (c : Dev nD) (t : Fin cfg0.N) :
    (iblk m c 1 t : FVec Ideal S128x64 .f32) = (V m c main_arg1 : FVec Ideal S128x64 .f32) := by
  obtain ⟨-, -, e0, e1, -⟩ := idx_facts t
  funext x
  unfold iblk
  rw [View.read_apply]
  show (V m c main_arg1 : S128x64.Idx → EReal) (((cfg0.win 1).blk t).view.emb x) = _
  refine congrArg (V m c main_arg1 : S128x64.Idx → EReal) (funext fun a => Fin.ext ?_)
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- The block of the hidden bias row at every point is the whole row. -/
theorem b1blk_eq (c : Dev nD) (t : Fin cfg0.N) :
    (iblk m c 2 t : FVec Ideal S1x64 .f32) = (V m c main_v0 : FVec Ideal S1x64 .f32) := by
  obtain ⟨-, -, -, -, e0, e1, -⟩ := idx_facts t
  funext x
  unfold iblk
  rw [View.read_apply]
  show (V m c main_v0 : S1x64.Idx → EReal) (((cfg0.win 2).blk t).view.emb x) = _
  refine congrArg (V m c main_v0 : S1x64.Idx → EReal) (funext fun a => Fin.ext ?_)
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The block of `W2` at every point is the whole array. -/
theorem w2blk_eq (c : Dev nD) (t : Fin cfg0.N) :
    (iblk m c 3 t : FVec Ideal S64x1 .f32) = (V m c main_arg3 : FVec Ideal S64x1 .f32) := by
  obtain ⟨-, -, -, -, -, -, e0, e1, -⟩ := idx_facts t
  funext x
  unfold iblk
  rw [View.read_apply]
  show (V m c main_arg3 : S64x1.Idx → EReal) (((cfg0.win 3).blk t).view.emb x) = _
  refine congrArg (V m c main_arg3 : S64x1.Idx → EReal) (funext fun a => Fin.ext ?_)
  match a with
  | ⟨0, _⟩ => show win0_3.index t (0 : Fin 2) * 64 + 1 * (x 0).val = (x 0).val; rw [e0]; omega
  | ⟨1, _⟩ => show win0_3.index t (1 : Fin 2) * 1 + 1 * (x 1).val = (x 1).val; rw [e1]; omega

/-- The block of the output bias cell at every point is the cell. -/
theorem b2blk_eq (c : Dev nD) (t : Fin cfg0.N) :
    (iblk m c 4 t : FVec Ideal S1x1 .f32) = (V m c main_v1 : FVec Ideal S1x1 .f32) := by
  obtain ⟨-, -, -, -, -, -, -, -, e0, e1, -⟩ := idx_facts t
  funext x
  unfold iblk
  rw [View.read_apply]
  show (V m c main_v1 : S1x1.Idx → EReal) (((cfg0.win 4).blk t).view.emb x) = _
  refine congrArg (V m c main_v1 : S1x1.Idx → EReal) (funext fun a => Fin.ext ?_)
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-! ## What a point writes back -/

/-- The body's stored tile, for blocks that are the rows `10000·t …` of `X` and the whole of the other operands, is
    tile `t` of the perceptron's tiles: at lane `q` both are the output of row `10000·t + q`. -/
theorem tile_point (X : FVec Ideal S100000x128 .f32) (W1 : FVec Ideal S128x64 .f32) (B1 : FVec Ideal S1x64 .f32)
    (W2 : FVec Ideal S64x1 .f32) (B2 : FVec Ideal S1x1 .f32)
    (x0 : FVec Ideal S10000x128 .f32) (x1 : FVec Ideal S128x64 .f32) (x2 : FVec Ideal S1x64 .f32)
    (x3 : FVec Ideal S64x1 .f32) (x4 : FVec Ideal S1x1 .f32) (t : Fin 10)
    (h0 : ∀ (q : Fin 10000) (j : Fin 128), x0 (ix2 q j) = X (ix2 ⟨t.val * 10000 + q.val, tile_row_lt t q⟩ j))
    (h1 : x1 = W1) (h2 : x2 = B1) (h3 : x3 = W2) (h4 : x4 = B2)
    (y : S1x1x10000.Idx) (i : S10x1x10000.Idx) (hi0 : (i 0).val = t.val) (hi2 : (i 2).val = (y 2).val) :
    k0_pay1 (F := Ideal) x0 x1 x2 x3 x4 y
      = tiles X W1 (fun k => B1 (ix2 (0 : Fin 1) k)) W2 (B2 (ix2 (0 : Fin 1) (0 : Fin 1))) i := by
  obtain ⟨u, v, q, rfl⟩ : ∃ (u : Fin 1) (v : Fin 1) (q : Fin 10000), y = ix3 u v q := ⟨y 0, y 1, y 2, eq_ix3 y⟩
  obtain ⟨a, b, d, rfl⟩ : ∃ (a : Fin 10) (b : Fin 1) (d : Fin 10000), i = ix3 a b d := ⟨i 0, i 1, i 2, eq_ix3 i⟩
  obtain rfl : a = t := Fin.ext hi0
  obtain rfl : d = q := Fin.ext hi2
  subst h1 h2 h3 h4
  rw [Body.pay_apply, tiles_ix3]
  unfold row hidden
  simp only [h0]

/-- The perceptron's tiles of the arrays as the region finds them. -/
abbrev regionTiles (c : Dev nD) : FVec Ideal S10x1x10000 .f32 :=
  tiles (V m c main_arg0 : FVec Ideal S100000x128 .f32) (V m c main_arg1 : FVec Ideal S128x64 .f32)
    (fun k => (V m c main_v0 : FVec Ideal S1x64 .f32) (ix2 (0 : Fin 1) k)) (V m c main_arg3 : FVec Ideal S64x1 .f32)
    ((V m c main_v1 : FVec Ideal S1x1 .f32) (ix2 (0 : Fin 1) (0 : Fin 1)))

/-- What point `t` writes back is block `t` of those tiles. -/
theorem flushed_eq (c : Dev nD) (t : Fin cfg0.N) :
    (dats m 0 c).flushed 5 t = ((cfg0.win 5).blk t).view.read (Elt Ideal) (regionTiles m c) := by
  show (cfg0.win 5).cut (grid0.coords t) ((dats m 0 c).after 5 t) = _
  rw [after0_5]
  unfold out0_5
  rw [View.canon_unit_zero hz3]
  simp only [View.ld_unit_zero (S := S10000x128) hz2, View.ld_unit_zero (S := S128x64) hz2,
    View.ld_unit_zero (S := S1x64) hz2, View.ld_unit_zero (S := S64x1) hz2, View.ld_unit_zero (S := S1x1) hz2]
  have hN : cfg0.N = 10 := N_0
  have ht : t.val < 10 := hN ▸ t.isLt
  obtain ⟨-, -, -, -, -, -, -, -, -, -, e0, -, e2⟩ := idx_facts t
  funext y
  show k0_pay1 (F := Ideal) (iblk m c 0 t) (iblk m c 1 t) (iblk m c 2 t) (iblk m c 3 t) (iblk m c 4 t) y
    = regionTiles m c (((cfg0.win 5).blk t).view.emb y)
  refine tile_point (V m c main_arg0) (V m c main_arg1) (V m c main_v0) (V m c main_arg3) (V m c main_v1)
    (iblk m c 0 t) (iblk m c 1 t) (iblk m c 2 t) (iblk m c 3 t) (iblk m c 4 t) ⟨t.val, ht⟩
    (fun q j => xblk_apply m c t q j _ rfl) (w1blk_eq m c t) (b1blk_eq m c t) (w2blk_eq m c t) (b2blk_eq m c t)
    y (((cfg0.win 5).blk t).view.emb y) ?_ ?_
  · show win0_5.index t (0 : Fin 3) * 1 + 1 * (y 0).val = t.val
    have hy : (y 0).val < 1 := (y 0).isLt
    rw [e0]; omega
  · show win0_5.index t (2 : Fin 3) * 10000 + 1 * (y 2).val = (y 2).val
    rw [e2]; omega

/-! ## The result array after the region -/

/-- An index of the result array is in point `t`'s block iff each coordinate is in the block's range on its axis. -/
theorem mem_blk (t : Fin cfg0.N) (i : S10x1x10000.Idx) :
    i ∈ ((cfg0.win 5).blk t).view.set ↔ ∀ a : Fin 3, win0_5.index t a * S1x1x10000.size a ≤ (i a).val
      ∧ (i a).val < win0_5.index t a * S1x1x10000.size a + S1x1x10000.size a := by
  show i ∈ ((View.whole main_v2).slice (win0_5.rect t)).set ↔ _
  rw [View.set_slice_whole, Rect.mem_set_unit]
  exact Iff.rfl

/-- Every index `(a, 0, q)` of the result array is in the block point `a` writes back. -/
theorem cover (i : S10x1x10000.Idx) :
    ∃ t : Fin cfg0.N, (cfg0.win 5).flush t = true ∧ i ∈ ((cfg0.win 5).blk t).view.set := by
  have h0 : (i 0).val < 10 := (i 0).isLt
  have h1 : (i 1).val < 1 := (i 1).isLt
  have h2 : (i 2).val < 10000 := (i 2).isLt
  have hN : cfg0.N = 10 := N_0
  obtain ⟨t, ht⟩ : ∃ t : Fin cfg0.N, t.val = (i 0).val := ⟨⟨(i 0).val, by omega⟩, rfl⟩
  obtain ⟨-, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 10000 ≤ (i 2).val ∧ (i 2).val < win0_5.index t (2 : Fin 3) * 10000 + 10000; rw [e2]; omega

/-- After the region the result array holds the perceptron's tiles. -/
theorem final (c : Dev nD) : (dats m 0 c).arrAt 5 cfg0.N = regionTiles m c :=
  (dats m 0 c).arrAt_eq_of_cover 5 (regionTiles m c) (fun t _ => flushed_eq m c t) cover

/-! ## The biases as the region finds them -/

/-- The hidden bias row is the bias vector given a leading unit axis. -/
theorem V_bias1 (c : Dev nD) : (V m c main_v0 : FVec Ideal S1x64 .f32)
    = shapeCast S1x64 (m ((c : Thread nD τ).loc main_arg2) : FVec Ideal S64 .f32) shapeCasts_S64_S1x64 := by
  show StableHlo.after hostOps0 (fun b => m (c, b)) (Proc.devRef .tc main_v0) = _
  after_results
  rfl

/-- The output bias cell is the one-entry bias vector given a leading unit axis. -/
theorem V_bias2 (c : Dev nD) : (V m c main_v1 : FVec Ideal S1x1 .f32)
    = shapeCast S1x1 (m ((c : Thread nD τ).loc main_arg4) : FVec Ideal S1 .f32) shapeCasts_S1_S1x1 := by
  show StableHlo.after hostOps0 (fun b => m (c, b)) (Proc.devRef .tc main_v1) = _
  after_results
  rfl

/-- The tiles of the arrays as the region finds them are the tiles of the arguments as launched. -/
theorem regionTiles_eq (c : Dev nD) : regionTiles m c
    = tiles (m ((c : Thread nD τ).loc main_arg0) : FVec Ideal S100000x128 .f32) (m ((c : Thread nD τ).loc main_arg1) : FVec Ideal S128x64 .f32)
        (fun k => (m ((c : Thread nD τ).loc main_arg2) : FVec Ideal S64 .f32) (ix1 k)) (m ((c : Thread nD τ).loc main_arg3) : FVec Ideal S64x1 .f32)
        ((m ((c : Thread nD τ).loc main_arg4) : FVec Ideal S1 .f32) (ix1 (0 : Fin 1))) := by
  unfold regionTiles
  rw [V_main_arg0, V_main_arg1, V_main_arg3, V_bias1, V_bias2]
  simp only [shapeCast_a_1a_apply]

end Cert.Mlp.Tile

end
-- ==== Proof.LibTilesToColumn.lean ====
/-
  A stack of lane-major tiles re-read as one column.

  An array `[t, 1, n]` — `t` tiles, each one row of `n` lanes — and the column `[N, 1]` with `N = t · n` have the same
  row-major order: position `(a, 0, q)` of the tiles is position `a · n + q`, which is row `a · n + q` of the column. So a shape
  cast from the tiles to the column reads, at row `r = a · n + q`, the tile `a` at lane `q`.
-/
import Idealize.ShloMosaic.Lib.Pipeline.Value
import Idealize.ShloMosaic.Lib.ValueIdx

namespace Cert.Mlp.Lib

open Idealize.ShloMosaic Idealize.ShloMosaic.ValueIdx

variable {α : Type}

/-- A `[t, 1, n]` array cast to the column `[N, 1]` reads, at `(r, u)` with `r = a · n + q`, the operand at `(a, 0, q)`. -/
theorem shapeCast_t1n_N1_apply {t n N : ℕ} (x : (⟨3, ![t, 1, n]⟩ : Shape).Idx → α)
    (h : (⟨3, ![t, 1, n]⟩ : Shape).ShapeCasts ⟨2, ![N, 1]⟩) (a : Fin t) (q : Fin n) (r : Fin N) (u : Fin 1)
    (hr : r.val = a.val * n + q.val) :
    shapeCast ⟨2, ![N, 1]⟩ x h (ix2 r u) = x (ix3 a (0 : Fin 1) q) :=
  shapeCast_apply x h _ _ (by
    have hu : u.val = 0 := by omega
    rw [Shape.rowMajor_val_three, Shape.rowMajor_val_two]
    show (a.val * 1 + 0) * n + q.val = r.val * 1 + u.val
    rw [hu, hr]
    simp only [Nat.mul_one, Nat.add_zero])

end Cert.Mlp.Lib
-- ==== Proof.TailValue.lean ====
/-
  The kernel program's result, and its run.

  After the region the program reshapes the ten tiles `[10, 1, 10000]` to the column `[100000, 1]`. Row-major order is
  kept, so row `r` of the column is lane `r mod 10000` of tile `r div 10000`, which holds the perceptron's output for row
  `10000 · (r div 10000) + r mod 10000 = r`: the column is `Cert.Mlp.result` of the arguments as launched.
-/
import proofs.«115821_g6820408066178_cont_9to1c4b_824_8_alg».proof.Proof.Gen.KernelIdeal.Frame
import proofs.«115821_g6820408066178_cont_9to1c4b_824_8_alg».proof.Proof.TileValue
import proofs.«115821_g6820408066178_cont_9to1c4b_824_8_alg».proof.Proof.LibTilesToColumn

noncomputable section

open scoped BigOperators

open Idealize.ShloMosaic Idealize.ShloMosaic.TcCoe Idealize.SL.Sem Idealize.ShloMosaic.ValueIdx
open Idealize.ShloMosaic.Pipeline (Dat)

namespace Cert.Mlp.Tail

open Cert.KernelIdeal Cert.KernelIdeal.Gen Idealize.ShloMosaic.StableHlo Cert.Mlp.Tile

variable (m : (ℓ : Loc nD τ sig) → Buf (Elt Ideal) ℓ)

/-- The perceptron's column of the arguments as launched. -/
abbrev launched (c : Dev nD) : FVec Ideal S100000x1 .f32 :=
  result (m ((c : Thread nD τ).loc main_arg0) : FVec Ideal S100000x128 .f32) (m ((c : Thread nD τ).loc main_arg1) : FVec Ideal S128x64 .f32)
    (fun k => (m ((c : Thread nD τ).loc main_arg2) : FVec Ideal S64 .f32) (ix1 k)) (m ((c : Thread nD τ).loc main_arg3) : FVec Ideal S64x1 .f32)
    ((m ((c : Thread nD τ).loc main_arg4) : FVec Ideal S1 .f32) (ix1 (0 : Fin 1)))

/-- What the region leaves in its result array, as the lines after the region find it. -/
theorem region_array (c : Dev nD) :
    (Pipeline.withArrays (cfgs 0).spec c (V0 m c) (fun w => (dats m 0 c).arrAt w (cfgs 0).N) (Proc.devRef .tc main_v2) : FVec Ideal S10x1x10000 .f32)
      = regionTiles m c :=
  (Pipeline.withArrays_arr spec0 launch0.win.arr_inj c (V0 m c) _ 5).trans (final m c)

/-- The program's result buffer after the reshape that follows the region is the perceptron's column. -/
theorem tail_eq (c : Dev nD) :
    (Pipeline.afterTail₀ cfgs (dats m) 0 (V0 m) [hostOps1] c main_v3 : FVec Ideal S100000x1 .f32) = launched m c := by
  unfold Pipeline.afterTail₀
  show StableHlo.after hostOps1 _ (Proc.devRef .tc main_v3) = _
  after_results
  funext i
  obtain ⟨r, u, rfl⟩ : ∃ (r : Fin 100000) (u : Fin 1), i = ix2 r u := ⟨i 0, i 1, eq_ix2 i⟩
  show shapeCast S100000x1 (Pipeline.withArrays (cfgs 0).spec c (V0 m c) (fun w => (dats m 0 c).arrAt w (cfgs 0).N) (Proc.devRef .tc main_v2) : FVec Ideal S10x1x10000 .f32)
      shapeCasts_S10x1x10000_S100000x1 (ix2 r u) = _
  refine (congrArg (fun A : FVec Ideal S10x1x10000 .f32 => shapeCast S100000x1 A shapeCasts_S10x1x10000_S100000x1 (ix2 r u))
    ((region_array m c).trans (regionTiles_eq m c))).trans ?_
  have hr : r.val < 100000 := r.isLt
  refine (Lib.shapeCast_t1n_N1_apply _ _ (⟨r.val / 10000, by omega⟩ : Fin 10) (⟨r.val % 10000, by omega⟩ : Fin 10000) r u (by
    show r.val = r.val / 10000 * 10000 + r.val % 10000; omega)).trans ?_
  rw [tiles_ix3]
  refine (congrArg (row _ _ _ _ _) (Fin.ext ?_)).trans (result_ix2 _ _ _ _ _ r u).symm
  show r.val / 10000 * 10000 + r.val % 10000 = r.val
  omega

/-- The kernel program's run at the extended reals: every weakly fair execution terminates with the result buffer at the
    perceptron's column of the launched arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = launched m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Mlp.Tail

end
-- ==== Proof.lean ====
/-
  The kernel and its reference compute one two-layer perceptron, `relu (X · W1 + b1) · W2 + b2`, row by row.

  The kernel tiles the 100000 rows of `X` in ten blocks of 10000, keeps both layers' weights whole, and for each block
  forms the rectified hidden layer, its product with the output weights plus the output bias, and stores the block's
  10000 outputs lane-major as one tile of a `[10, 1, 10000]` array, which the program then reshapes to the column
  `[100000, 1]`. The reference forms the same two matrix products on whole arrays. On the extended reals each matrix
  product is the finite sum over its contracted axis, the rectifier is the maximum with zero and the biases are added
  after the sums, in both programs alike; so both results are, entry by entry, `Cert.Mlp.result` (Proof/MlpSpec.lean):
  row `r` is `Σ_k max (Σ_j X[r, j] · W1[j, k] + b1[k]) 0 · W2[k, 0] + b2[0]`. No algebraic law joins the two sides — they are
  the same expression — so the inputs' finiteness is not used.

  The parts: the reference's stages read at an index are that expression (Proof/RefValue.lean, over the generated
  read-at-an-index lemmas of the reference's run); the kernel body's stored tile at a lane is that expression for the
  block's row (Proof/BodyValue.lean); the ten tiles written back fill the region's result array (Proof/TileValue.lean); the
  reshape after the region re-reads the tiles as the column (Proof/LibTilesToColumn.lean, Proof/TailValue.lean). The three
  frames are the generated ones (the reference's is its generated run with the result dropped); the idealization rewrote
  no operation, so there is nothing to preserve.
-/
import proofs.«115821_g6820408066178_cont_9to1c4b_824_8_alg».proof.Defs
import proofs.«115821_g6820408066178_cont_9to1c4b_824_8_alg».proof.Proof.Gen.Kernel
import proofs.«115821_g6820408066178_cont_9to1c4b_824_8_alg».proof.Proof.Gen.Kernel.Skeleton
import proofs.«115821_g6820408066178_cont_9to1c4b_824_8_alg».proof.Proof.Gen.Kernel.Launch
import proofs.«115821_g6820408066178_cont_9to1c4b_824_8_alg».proof.Proof.Gen.Kernel.Points
import proofs.«115821_g6820408066178_cont_9to1c4b_824_8_alg».proof.Proof.Gen.Kernel.Frame
import proofs.«115821_g6820408066178_cont_9to1c4b_824_8_alg».proof.Proof.Gen.KernelIdeal
import proofs.«115821_g6820408066178_cont_9to1c4b_824_8_alg».proof.Proof.Gen.KernelIdeal.Skeleton
import proofs.«115821_g6820408066178_cont_9to1c4b_824_8_alg».proof.Proof.Gen.KernelIdeal.Launch
import proofs.«115821_g6820408066178_cont_9to1c4b_824_8_alg».proof.Proof.Gen.KernelIdeal.Points
import proofs.«115821_g6820408066178_cont_9to1c4b_824_8_alg».proof.Proof.Gen.KernelIdeal.Frame
import proofs.«115821_g6820408066178_cont_9to1c4b_824_8_alg».proof.Proof.Gen.ReferenceIdeal
import proofs.«115821_g6820408066178_cont_9to1c4b_824_8_alg».proof.Proof.Gen.ReferenceIdeal.Run
import proofs.«115821_g6820408066178_cont_9to1c4b_824_8_alg».proof.Proof.Gen.ReferenceIdeal.Read
import proofs.«115821_g6820408066178_cont_9to1c4b_824_8_alg».proof.Proof.Gen.Pre_finite_inputs
import proofs.«115821_g6820408066178_cont_9to1c4b_824_8_alg».proof.Proof.RefValue
import proofs.«115821_g6820408066178_cont_9to1c4b_824_8_alg».proof.Proof.TailValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the perceptron's column of those arguments in
    their result buffers. -/
theorem algebraic : Cert.algebraic_KernelIdeal_ReferenceIdeal := by
  intro m ρ m' ρ' _ hagree
  refine ⟨fun c => Cert.Mlp.Tail.launched m c, Cert.Mlp.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.Mlp.Ref.val_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
